-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩

abbrev nBuf : Space → Nat
  | .hbm => 83
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S_, .i32⟩
  | .hbm, ⟨66, _⟩ => ⟨S1700000, .i32⟩
  | .hbm, ⟨67, _⟩ => ⟨S1700000, .i1⟩
  | .hbm, ⟨68, _⟩ => ⟨S_, .i32⟩
  | .hbm, ⟨69, _⟩ => ⟨S1700000, .i32⟩
  | .hbm, ⟨70, _⟩ => ⟨S1700000, .i32⟩
  | .hbm, ⟨71, _⟩ => ⟨S1700000, .i32⟩
  | .hbm, ⟨72, _⟩ => ⟨S1700000x1, .i32⟩
  | .hbm, ⟨73, _⟩ => ⟨S1700000x128, .f32⟩
  | .hbm, ⟨74, _⟩ => ⟨S1700000x1, .f32⟩
  | .hbm, ⟨75, _⟩ => ⟨S1700000x128, .f32⟩
  | .hbm, ⟨76, _⟩ => ⟨S1700000x128, .f32⟩
  | .hbm, ⟨77, _⟩ => ⟨S_, .f32⟩
  | .hbm, ⟨78, _⟩ => ⟨S100000x128, .f32⟩
  | .hbm, ⟨79, _⟩ => ⟨S1700000x1, .i32⟩
  | .hbm, ⟨80, _⟩ => ⟨S100000x128, .f32⟩
  | .hbm, ⟨81, _⟩ => ⟨S1x128, .f32⟩
  | .hbm, ⟨82, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v59) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 132
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S1x1600000, .i32⟩
  | 7 => ⟨S1600000, .i32⟩
  | 8 => ⟨S1x1600000, .i32⟩
  | 9 => ⟨S1600000, .i32⟩
  | 10 => ⟨S100000x128, .f32⟩
  | 11 => ⟨S100000, .i32⟩
  | 12 => ⟨S1700000, .i32⟩
  | 13 => ⟨S1700000, .i32⟩
  | 14 => ⟨S_, .f32⟩
  | 15 => ⟨S1700000, .f32⟩
  | 16 => ⟨S_, .f32⟩
  | 17 => ⟨S100000, .f32⟩
  | 18 => ⟨S1700000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000x128, .f32⟩
  | 56 => ⟨S1700000x1, .f32⟩
  | 57 => ⟨S1700000x128, .f32⟩
  | 58 => ⟨S1700000x128, .f32⟩
  | 59 => ⟨S_, .f32⟩
  | 60 => ⟨S100000x128, .f32⟩
  | 61 => ⟨S1700000x1, .i32⟩
  | 62 => ⟨S100000x128, .f32⟩
  | 63 => ⟨S1x128, .f32⟩
  | 64 => ⟨S100000x128, .f32⟩
  | 65 => ⟨S100000x128, .f32⟩
  | 66 => ⟨S_, .f32⟩
  | 67 => ⟨S100000x128, .f32⟩
  | 68 => ⟨S100000x128, .f32⟩
  | 69 => ⟨S100000x128, .f32⟩
  | 70 => ⟨S100000, .i32⟩
  | 71 => ⟨S1700000, .i32⟩
  | 72 => ⟨S1700000, .i32⟩
  | 73 => ⟨S_, .f32⟩
  | 74 => ⟨S1700000, .f32⟩
  | 75 => ⟨S_, .f32⟩
  | 76 => ⟨S100000, .f32⟩
  | 77 => ⟨S1700000x1, .i32⟩
  | 78 => ⟨S100000, .f32⟩
  | 79 => ⟨S_, .f32⟩
  | 80 => ⟨S100000, .f32⟩
  | 81 => ⟨S100000, .i1⟩
  | 82 => ⟨S100000, .f32⟩
  | 83 => ⟨S_, .f32⟩
  | 84 => ⟨S_, .f32⟩
  | 85 => ⟨S100000, .f32⟩
  | 86 => ⟨S100000, .f32⟩
  | 87 => ⟨S_, .i32⟩
  | 88 => ⟨S1700000, .i32⟩
  | 89 => ⟨S1700000, .i1⟩
  | 90 => ⟨S_, .i32⟩
  | 91 => ⟨S1700000, .i32⟩
  | 92 => ⟨S1700000, .i32⟩
  | 93 => ⟨S1700000, .i32⟩
  | 94 => ⟨S1700000x1, .i32⟩
  | 95 => ⟨S1700000, .f32⟩
  | 96 => ⟨S_, .i32⟩
  | 97 => ⟨S1700000, .i32⟩
  | 98 => ⟨S1700000, .i1⟩
  | 99 => ⟨S_, .i32⟩
  | 100 => ⟨S1700000, .i32⟩
  | 101 => ⟨S1700000, .i32⟩
  | 102 => ⟨S1700000, .i32⟩
  | 103 => ⟨S1700000x1, .i32⟩
  | 104 => ⟨S1700000, .f32⟩
  | 105 => ⟨S1700000, .f32⟩
  | 106 => ⟨S_, .i32⟩
  | 107 => ⟨S1700000, .i32⟩
  | 108 => ⟨S1700000, .i1⟩
  | 109 => ⟨S_, .i32⟩
  | 110 => ⟨S1700000, .i32⟩
  | 111 => ⟨S1700000, .i32⟩
  | 112 => ⟨S1700000, .i32⟩
  | 113 => ⟨S1700000x1, .i32⟩
  | 114 => ⟨S1700000x128, .f32⟩
  | 115 => ⟨S1700000x1, .f32⟩
  | 116 => ⟨S1700000x128, .f32⟩
  | 117 => ⟨S1700000x128, .f32⟩
  | 118 => ⟨S_, .f32⟩
  | 119 => ⟨S100000x128, .f32⟩
  | 120 => ⟨S1700000x1, .i32⟩
  | 121 => ⟨S100000x128, .f32⟩
  | 122 => ⟨S1x128, .f32⟩
  | 123 => ⟨S100000x128, .f32⟩
  | 124 => ⟨S100000x128, .f32⟩
  | 125 => ⟨S_, .f32⟩
  | 126 => ⟨S100000x128, .f32⟩
  | 127 => ⟨S100000x128, .f32⟩
  | _ => ⟨S100000x128, .f32⟩

abbrev hbmTy0_1 (i : Nat) : BufTy := match i % 128 with
  | 0 => ⟨S100000x128, .f32⟩
  | 1 => ⟨S_, .f32⟩
  | 2 => ⟨S100000x128, .f32⟩
  | 3 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_call3_cst : Ref sig .tc := ⟨.hbm, 125, rfl⟩
abbrev main_call3_v0 : Ref sig .tc := ⟨.hbm, 126, rfl⟩
abbrev main_v91 : Ref sig .tc := ⟨.hbm, 127, rfl⟩
abbrev main_v92 : Ref sig .tc := ⟨.hbm, 128, rfl⟩
abbrev main_cst_20 : Ref sig .tc := ⟨.hbm, 129, rfl⟩
abbrev main_v93 : Ref sig .tc := ⟨.hbm, 130, rfl⟩
abbrev main_v94 : Ref sig .tc := ⟨.hbm, 131, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.KernelRun.lean ====
/-
  The idealized tiled program's run with its result NAMED.

  The program is three row-tiled units among stretches of host operations. Running it from any memory
  with zero counters, every weakly fair execution terminates without a fault, the six argument arrays
  end as launched, and the result array ends at what the fold of the program's segments leaves in it:
  the last unit's output array after all of its write-backs. This is the same launch of the same
  segments that gives the program's frame; only the final reading keeps one more buffer, the result.
-/
import proofs.«155755_j46780783788357_1_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faults, the result array ends at the last unit's
    output array as its write-backs leave it, and the arguments end as launched. -/
theorem run_named : θ_run defs (onTc (τ := τ) (main (F := F))) ⟨m, fun _ => 0, ρ⟩ (fun r => ∀ c : Dev nD,
      r.2.mem ((c.tc : Thread nD τ).loc main_v60) = W8 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v60 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Named

end
-- ==== Proof.LibPlainDot.lean ====
/-
  A plain matrix product read entry by entry, at the extended reals.

  Both the tiled unit's `tpu.matmul` into a zero accumulator and the host's `dot_general` are, at the ideal
  values, the sum over the dot's contraction index of the operands' products. The contraction index is a
  one-axis multi-index whose shape is computed from the dimension numbers; for the plain product of an
  `M × K` matrix with a `K × N` one (contract the left operand's columns against the right operand's
  rows, no batch axis) that index is just a number below `K`, and entry `(p, q)` of the product is
  `∑ k < K, l (p, k) · r (k, q)` — for every `M`, `K`, `N`, so a block of rows and the whole array are
  read by one and the same lemma.
-/
import Idealize.ShloMosaic.PureOps.Ideal.Laws
import Idealize.ShloMosaic.Lib.ValueIdx

noncomputable section

namespace Cert.PlainDot

open Idealize.ShloMosaic Idealize.ShloMosaic.ValueIdx

/-- The dimension numbers of a plain product: the left operand's axis 1 contracted against the right
    operand's axis 0, rows from the left, columns from the right, no batch axis. -/
structure IsPlain {M K N : Nat} (d : DotDims ⟨2, ![M, K]⟩ ⟨2, ![K, N]⟩ ⟨2, ![M, N]⟩) : Prop where
  lhsContracting : d.lhsContracting = [1]
  rhsContracting : d.rhsContracting = [0]
  lhsNonContracting : d.lhsNonContracting = [0]
  rhsNonContracting : d.rhsNonContracting = [1]
  lhsBatch : d.lhsBatch = []
  rhsBatch : d.rhsBatch = []

variable {M K N : Nat}

/-- The sum over the contraction multi-index of a plain product, at entry `(p, q)`, is the sum over
    `k < K` of `l (p, k) · r (k, q)`: the one-axis contraction index is re-indexed by its coordinate, and
    the operand indices the dimension numbers compute are `(p, k)` and `(k, q)`. -/
theorem sum_contr (d : DotDims ⟨2, ![M, K]⟩ ⟨2, ![K, N]⟩ ⟨2, ![M, N]⟩) (h : IsPlain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  simp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hlc : d.lhsContracting = [1] := by subst hd; rfl
  have hrc : d.rhsContracting = [0] := by subst hd; rfl
  have hrank : d.contr.rank = 1 := by subst hd; rfl
  have hsize : d.contr.size ⟨0, by omega⟩ = K := by subst hd; rfl
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k := funext fun a => Fin.ext (by
    match a with
    | ⟨0, _⟩ =>
      subst hd
      unfold DotDims.lhsIdx
      split
      · rename_i hb; exact absurd hb List.not_mem_nil
      · split
        · rfl
        · rename_i hn; exact absurd (List.mem_singleton.mpr (Fin.ext rfl)) hn
    | ⟨1, _⟩ => exact (d.lhsIdx_val_of_single hlc _ _).trans hk)
  have er : d.rhsIdx (ix2 p q) ((contrEquiv1 d K hrank hsize).symm k) = ix2 k q := funext fun a => Fin.ext (by
    match a with
    | ⟨0, _⟩ => exact (d.rhsIdx_val_of_single hrc _ _).trans hk
    | ⟨1, _⟩ =>
      subst hd
      unfold DotDims.rhsIdx
      split
      · rename_i hb; exact absurd hb List.not_mem_nil
      · split
        · rfl
        · rename_i hn; exact absurd (List.mem_singleton.mpr (Fin.ext rfl)) hn)
  rw [el, er]

/-- A `tpu.matmul` of a plain product into the zero accumulator, read at entry `(p, q)`. -/
theorem matmul_zero_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    matmul d prec l r (constant ⟨2, ![M, N]⟩ .f32 0x00000000#32) (ix2 p q) = ∑ k : Fin K, l (ix2 p k) * r (ix2 k q) :=
  (Ideal.matmul_constant_zero_apply d prec l r (ix2 p q)).trans (sum_contr d h l r p q)

/-- The host's `dot_general` of a plain product, read at entry `(p, q)`: the same sum. -/
theorem dotGeneral_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    Host.dotGeneral d prec l r (ix2 p q) = ∑ k : Fin K, l (ix2 p k) * r (ix2 k q) :=
  (Ideal.dotGeneral_apply d prec .single l r (ix2 p q)).trans (sum_contr d h l r p q)

end Cert.PlainDot

end
-- ==== Proof.Spec.lean ====
/-
  The three dense stages of the two-layer graph block, as whole-array functions on the extended reals.

  Every stage acts on the rows of an `[N, 128]` array independently (N = 100000):
    * `timesW X W`             — row p of the result is row p of `X` times the 128 × 128 matrix `W`;
    * `reluTimesW A b W`       — row p is `max (A p + b, 0)` (the bias `b` added to every row) times `W`;
    * `mixHalf X A b`          — entry (p, q) is `(X p q + max (A p q + b q, 0)) · ½`.
  Because a row of the result only needs the same row of the operands, a tile of consecutive rows of the
  result is the same function of the matching tile of the operands: that is what lets a row-tiled
  computation be read as one whole-array function.
-/
import Idealize.ShloMosaic.PureOps.Ideal
import Idealize.ShloMosaic.Lib.ValueIdx

noncomputable section

namespace Cert.Gcn

open Idealize.ShloMosaic Idealize.ShloMosaic.ValueIdx

/-- An `r × c` array of extended reals, indexed by its two coordinates. -/
abbrev Mat (r c : Nat) : Type := (⟨2, ![r, c]⟩ : Shape).Idx → EReal

/-- The array whose entry `(p, q)` is `f p q`. -/
def ofCoords {r c : Nat} (f : Fin r → Fin c → EReal) : Mat r c :=
  fun i => f ⟨(i 0).val, (i 0).isLt⟩ ⟨(i 1).val, (i 1).isLt⟩

theorem ofCoords_ix2 {r c : Nat} (f : Fin r → Fin c → EReal) (p : Fin r) (q : Fin c) :
    ofCoords f (ix2 p q) = f p q := rfl

/-- The float zero and one half, as the words the programs spell them with. -/
abbrev zero : EReal := FloatOps.ofBits (F := Ideal) .f32 0x00000000#32
abbrev half : EReal := FloatOps.ofBits (F := Ideal) .f32 0x3F000000#32

/-- A length-128 vector laid out as a `1 × 128` row. -/
def row (b : (⟨1, ![128]⟩ : Shape).Idx → EReal) : Mat 1 128 := fun i => b (ix1 ⟨(i 1).val, (i 1).isLt⟩)

theorem row_ix2 (b : (⟨1, ![128]⟩ : Shape).Idx → EReal) (u : Fin 1) (k : Fin 128) : row b (ix2 u k) = b (ix1 k) := rfl

/-- `X · W`: entry `(p, q)` is `∑ k, X p k · W k q`. -/
def timesW {n : Nat} (X : Mat n 128) (W : Mat 128 128) : Mat n 128 :=
  ofCoords fun p q => ∑ k : Fin 128, X (ix2 p k) * W (ix2 k q)

/-- `max (A + b, 0) · W` with the bias row `b` added to every row of `A`. -/
def reluTimesW {n : Nat} (A : Mat n 128) (b : Mat 1 128) (W : Mat 128 128) : Mat n 128 :=
  ofCoords fun p q => ∑ k : Fin 128, max (A (ix2 p k) + b (ix2 (0 : Fin 1) k)) zero * W (ix2 k q)

/-- `(X + max (A + b, 0)) · ½`, entry by entry. -/
def mixHalf {n : Nat} (X A : Mat n 128) (b : Mat 1 128) : Mat n 128 :=
  ofCoords fun p q => (X (ix2 p q) + max (A (ix2 p q) + b (ix2 (0 : Fin 1) q)) zero) * half

end Cert.Gcn

end
-- ==== Proof.Body.lean ====
/-
  What each of the three tiled units stores for one tile of 5000 rows, read entry by entry at the
  extended reals.

  Rounding the operands of a matrix product to a narrower float format is the identity on the extended
  reals, and a product accumulated into zero is the plain sum of products; so the first unit stores its
  tile of rows times the weights, the second the same after adding the bias row and clamping below at
  zero, and the third the entrywise average of its first operand with the clamped, biased second one.
-/
import proofs.«155755_j46780783788357_1_alg».proof.Proof.Gen.KernelIdeal.Skeleton
import proofs.«155755_j46780783788357_1_alg».proof.Proof.LibPlainDot
import proofs.«155755_j46780783788357_1_alg».proof.Proof.Spec
import Idealize.ShloMosaic.Lib.Pipeline.Value
import Idealize.ShloMosaic.Lib.ValueLayout

noncomputable section

namespace Cert.Gcn.Body

open Idealize.ShloMosaic Idealize.ShloMosaic.ValueIdx Cert.KernelIdeal Cert.KernelIdeal.Gen Cert.Gcn

/-- The 5000 × 128 by 128 × 128 product the units use contracts the left operand's columns against the
    right operand's rows and has no batch axis. -/
theorem plain : Cert.PlainDot.IsPlain dot_S5000x128_S128x128_S5000x128_1_0_0_1_n_n :=
  ⟨rfl, rfl, rfl, rfl, rfl, rfl⟩

/-- The first unit's tile: rows times weights. -/
theorem pay0_eq (x0 : Vec Ideal S5000x128 .f32) (x1 : Vec Ideal S128x128 .f32) :
    k0_pay1 (F := Ideal) x0 x1 = timesW x0 x1 := by
  funext j
  obtain ⟨p, q, rfl⟩ : ∃ (p : Fin 5000) (q : Fin 128), j = ix2 p q := ⟨j 0, j 1, eq_ix2 j⟩
  unfold k0_pay1
  exact Cert.PlainDot.matmul_zero_apply dot_S5000x128_S128x128_S5000x128_1_0_0_1_n_n plain none x0 x1 p q

/-- The second unit's tile: the bias row added to every row, clamped below at zero, then times the weights. -/
theorem pay1_eq (x0 : Vec Ideal S5000x128 .f32) (x1 : Vec Ideal S1x128 .f32) (x2 : Vec Ideal S128x128 .f32) :
    k1_pay1 (F := Ideal) x0 x1 x2 = reluTimesW x0 x1 x2 := by
  funext j
  obtain ⟨p, q, rfl⟩ : ∃ (p : Fin 5000) (q : Fin 128), j = ix2 p q := ⟨j 0, j 1, eq_ix2 j⟩
  unfold k1_pay1
  refine (Cert.PlainDot.matmul_zero_apply dot_S5000x128_S128x128_S5000x128_1_0_0_1_n_n plain none _ _ p q).trans ?_
  show _ = ∑ k : Fin 128, max (x0 (ix2 p k) + x1 (ix2 (0 : Fin 1) k)) zero * x2 (ix2 k q)
  refine Finset.sum_congr rfl fun k _ => ?_
  rw [shapeCast_self, shapeCast_self]
  show max (x0 (ix2 p k) + broadcastTo S5000x128 x1 broadcasts_S1x128_S5000x128 (ix2 p k)) zero * x2 (ix2 k q) = _
  rw [broadcastTo_1b_ab_apply]

/-- The third unit's tile: the first operand averaged, entry by entry, with the clamped, biased second one. -/
theorem pay2_eq (a : Vec Ideal S5000x128 .f32) (b : Vec Ideal S1x128 .f32) (x : Vec Ideal S5000x128 .f32) :
    k2_pay1 (F := Ideal) a b x = mixHalf x a b := by
  funext j
  obtain ⟨p, q, rfl⟩ : ∃ (p : Fin 5000) (q : Fin 128), j = ix2 p q := ⟨j 0, j 1, eq_ix2 j⟩
  unfold k2_pay1
  rw [shapeCast_self, shapeCast_self]
  show (x (ix2 p q) + max (a (ix2 p q) + broadcastTo S5000x128 b broadcasts_S1x128_S5000x128 (ix2 p q)) zero) * half = _
  rw [broadcastTo_1b_ab_apply]
  rfl

end Cert.Gcn.Body

end
-- ==== Proof.Tile.lean ====
/-
  A tile of consecutive rows of each dense stage is the same stage of the matching tile of its operands.

  Each stage computes row `r` of its result from row `r` of its row-wise operands and from operands shared
  by all rows (the weights, the bias row). So if a tile of `h` rows sits at row offset `o` of the big arrays
  — the tile's row `p` is the big array's row `o + p`, columns unchanged — then the stage applied to the
  tile is the stage of the big arrays read on rows `o … o + h − 1`.
-/
import proofs.«155755_j46780783788357_1_alg».proof.Proof.Spec

noncomputable section

namespace Cert.Gcn

open Idealize.ShloMosaic Idealize.ShloMosaic.ValueIdx

/-- The index set of an `r × c` array. -/
abbrev Ix (r c : Nat) : Type := (⟨2, ![r, c]⟩ : Shape).Idx

variable {n h : Nat}

/-- Where a tile's entry sits in the big array, by coordinates: if the tile's index `y` is sent to row
    `o + (row of y)` and the same column, then `y = (p, q)` is sent to `(r, q)` with `r = o + p`. -/
theorem tile_coords (o : Nat) (eo : Ix h 128 → Ix n 128)
    (heo0 : ∀ y, (eo y 0).val = o + (y 0).val) (heo1 : ∀ y, (eo y 1).val = (y 1).val) (y : Ix h 128) :
    ∃ (p : Fin h) (q : Fin 128) (r : Fin n), y = ix2 p q ∧ eo y = ix2 r q ∧ r.val = o + p.val := by
  obtain ⟨p, q, rfl⟩ : ∃ (p : Fin h) (q : Fin 128), y = ix2 p q := ⟨y 0, y 1, eq_ix2 y⟩
  obtain ⟨r, q', he⟩ : ∃ (r : Fin n) (q' : Fin 128), eo (ix2 p q) = ix2 r q' := ⟨_, _, eq_ix2 _⟩
  have hr : r.val = o + p.val := by have := heo0 (ix2 p q); rw [he] at this; exact this
  have hq : q' = q := Fin.ext (by have := heo1 (ix2 p q); rw [he] at this; exact this)
  subst hq
  exact ⟨p, q', r, rfl, he, hr⟩

/-- Rows `o …` of `X · W` are the tile of rows `o …` of `X`, times `W`. -/
theorem timesW_tile (X : Mat n 128) (W : Mat 128 128) (x : Mat h 128) (w : Mat 128 128) (o : Nat)
    (eo : Ix h 128 → Ix n 128)
    (heo0 : ∀ y, (eo y 0).val = o + (y 0).val) (heo1 : ∀ y, (eo y 1).val = (y 1).val)
    (hx : ∀ (p : Fin h) (k : Fin 128) (r : Fin n), r.val = o + p.val → x (ix2 p k) = X (ix2 r k))
    (hw : ∀ k q : Fin 128, w (ix2 k q) = W (ix2 k q)) (y : Ix h 128) :
    timesW x w y = timesW X W (eo y) := by
  obtain ⟨p, q, r, rfl, he, hr⟩ := tile_coords o eo heo0 heo1 y
  rw [he]
  show ∑ k : Fin 128, x (ix2 p k) * w (ix2 k q) = ∑ k : Fin 128, X (ix2 r k) * W (ix2 k q)
  exact Finset.sum_congr rfl fun k _ => by rw [hx p k r hr, hw]

/-- The same for the biased, clamped product: the bias row is shared by all rows. -/
theorem reluTimesW_tile (A : Mat n 128) (B : Mat 1 128) (W : Mat 128 128) (a : Mat h 128) (b : Mat 1 128) (w : Mat 128 128)
    (o : Nat) (eo : Ix h 128 → Ix n 128)
    (heo0 : ∀ y, (eo y 0).val = o + (y 0).val) (heo1 : ∀ y, (eo y 1).val = (y 1).val)
    (ha : ∀ (p : Fin h) (k : Fin 128) (r : Fin n), r.val = o + p.val → a (ix2 p k) = A (ix2 r k))
    (hb : ∀ k : Fin 128, b (ix2 (0 : Fin 1) k) = B (ix2 (0 : Fin 1) k))
    (hw : ∀ k q : Fin 128, w (ix2 k q) = W (ix2 k q)) (y : Ix h 128) :
    reluTimesW a b w y = reluTimesW A B W (eo y) := by
  obtain ⟨p, q, r, rfl, he, hr⟩ := tile_coords o eo heo0 heo1 y
  rw [he]
  show ∑ k : Fin 128, max (a (ix2 p k) + b (ix2 (0 : Fin 1) k)) zero * w (ix2 k q)
    = ∑ k : Fin 128, max (A (ix2 r k) + B (ix2 (0 : Fin 1) k)) zero * W (ix2 k q)
  exact Finset.sum_congr rfl fun k _ => by rw [ha p k r hr, hb, hw]

/-- The same for the entrywise average: both row-wise operands are read on the same rows. -/
theorem mixHalf_tile (X A : Mat n 128) (B : Mat 1 128) (x a : Mat h 128) (b : Mat 1 128)
    (o : Nat) (eo : Ix h 128 → Ix n 128)
    (heo0 : ∀ y, (eo y 0).val = o + (y 0).val) (heo1 : ∀ y, (eo y 1).val = (y 1).val)
    (hx : ∀ (p : Fin h) (k : Fin 128) (r : Fin n), r.val = o + p.val → x (ix2 p k) = X (ix2 r k))
    (ha : ∀ (p : Fin h) (k : Fin 128) (r : Fin n), r.val = o + p.val → a (ix2 p k) = A (ix2 r k))
    (hb : ∀ k : Fin 128, b (ix2 (0 : Fin 1) k) = B (ix2 (0 : Fin 1) k)) (y : Ix h 128) :
    mixHalf x a b y = mixHalf X A B (eo y) := by
  obtain ⟨p, q, r, rfl, he, hr⟩ := tile_coords o eo heo0 heo1 y
  rw [he]
  show (x (ix2 p q) + max (a (ix2 p q) + b (ix2 (0 : Fin 1) q)) zero) * half
    = (X (ix2 r q) + max (A (ix2 r q) + B (ix2 (0 : Fin 1) q)) zero) * half
  rw [hx p q r hr, ha p q r hr, hb]

end Cert.Gcn

end
-- ==== Proof.Unit0.lean ====
/-
  The first tiled unit as one whole-array function: its output array ends at `X · W`.

  The unit's grid has 20 points; at point `t` it reads rows `5000 t … 5000 t + 4999` of `X` and the whole
  of `W`, and writes rows `5000 t …` of its output. What it writes is that tile of rows times `W`, which is the
  same tile of rows of `X · W`; the 20 tiles cover the output, so after the last write-back the output array
  is `X · W`, whatever the arrays held when the unit was entered.
-/
import proofs.«155755_j46780783788357_1_alg».proof.Proof.Gen.KernelIdeal.Frame
import proofs.«155755_j46780783788357_1_alg».proof.Proof.Body
import proofs.«155755_j46780783788357_1_alg».proof.Proof.Tile

set_option maxRecDepth 16384

noncomputable section

namespace Cert.Gcn.Unit0

open Idealize.ShloMosaic Idealize.ShloMosaic.TcCoe Idealize.ShloMosaic.ValueIdx Idealize.SL.Sem
open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The block indices, decided over the grid: the row-tiled windows sit at block row `t`, the weights are one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is tile `t` of `X · W` of the arrays as the unit finds them. -/
theorem flushed_eq (c : Dev nD) (t : Fin cfg0.N) :
    (dat0 V c).flushed 2 t = ((cfg0.win 2).blk t).view.read (Elt Ideal) (timesW (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  rw [Body.pay0_eq]
  obtain ⟨e0, e1, e2, e3, e4, e5⟩ := idx_facts t
  funext j
  exact timesW_tile (V c main_arg0) (V c main_arg2) (iblk0 V c 0 t) (iblk0 V c 1 t) (t.val * 5000) ((cfg0.win 2).blk t).view.emb
    (fun y => by show win0_2.index t (0 : Fin 2) * 5000 + 1 * (y 0).val = t.val * 5000 + (y 0).val; rw [e4]; omega)
    (fun y => by show win0_2.index t (1 : Fin 2) * 128 + 1 * (y 1).val = (y 1).val; rw [e5]; omega)
    (fun p k r hr => congrArg (V c main_arg0) (funext fun a => Fin.ext (by
      match a with
      | ⟨0, _⟩ => show win0_0.index t (0 : Fin 2) * 5000 + 1 * p.val = r.val; rw [e0]; omega
      | ⟨1, _⟩ => show win0_0.index t (1 : Fin 2) * 128 + 1 * k.val = k.val; rw [e1]; omega)))
    (fun k q => congrArg (V c main_arg2) (funext fun a => Fin.ext (by
      match a with
      | ⟨0, _⟩ => show win0_1.index t (0 : Fin 2) * 128 + 1 * k.val = k.val; rw [e2]; omega
      | ⟨1, _⟩ => show win0_1.index t (1 : Fin 2) * 128 + 1 * q.val = q.val; rw [e3]; omega)))
    j

/-- An index of the output array is in point `t`'s block iff each coordinate is in the block's range. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Row `r` of the output is written by point `r / 5000`: the tiles cover the array. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, lt_of_lt_of_eq (by omega : (i 0).val / 5000 < 20) N_0.symm⟩, rfl⟩
  obtain ⟨-, -, -, -, e4, e5⟩ := idx_facts t
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; rw [e4, ht]; omega
  | ⟨1, _⟩ => show win0_2.index t (1 : Fin 2) * 128 ≤ (i 1).val ∧ (i 1).val < win0_2.index t (1 : Fin 2) * 128 + 128; rw [e5]; omega

/-- After the unit's last write-back its output array is `X · W` of the arrays it was entered with. -/
theorem final (c : Dev nD) : (dat0 V c).arrAt 2 cfg0.N = timesW (V c main_arg0) (V c main_arg2) :=
  (dat0 V c).arrAt_eq_of_cover 2 _ (fun t _ => flushed_eq V c t) cover

end Cert.Gcn.Unit0

end
-- ==== Proof.Unit1.lean ====
/-
  The second tiled unit as one whole-array function: its output array ends at `max (A + b, 0) · W`.

  At grid point `t` (of 20) the unit reads rows `5000 t … 5000 t + 4999` of `A`, the bias row `b` and the whole of
  `W`, and writes rows `5000 t …` of its output: that tile of rows with the bias added and clamped at zero, times `W`
  — the same tile of rows of the whole-array function. The tiles cover the output.
-/
import proofs.«155755_j46780783788357_1_alg».proof.Proof.Gen.KernelIdeal.Frame
import proofs.«155755_j46780783788357_1_alg».proof.Proof.Body
import proofs.«155755_j46780783788357_1_alg».proof.Proof.Tile

set_option maxRecDepth 16384

noncomputable section

namespace Cert.Gcn.Unit1

open Idealize.ShloMosaic Idealize.ShloMosaic.TcCoe Idealize.ShloMosaic.ValueIdx Idealize.SL.Sem
open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The block indices, decided over the grid: the row-tiled windows sit at block row `t`; the bias row and the
    weights are one block each. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is tile `t` of `max (A + b, 0) · W` of the arrays as the unit finds them. -/
theorem flushed_eq (c : Dev nD) (t : Fin cfg1.N) :
    (dat1 V c).flushed 3 t
      = ((cfg1.win 3).blk t).view.read (Elt Ideal) (reluTimesW (V c main_v43) (V c main_v44) (V c main_arg4)) := by
  show (cfg1.win 3).cut (grid1.coords t) ((dat1 V c).after 3 t) = _
  rw [after1_3]
  unfold out1_3
  rw [View.canon_unit_zero hz]
  simp only [View.ld_unit_zero (S := S5000x128) hz, View.ld_unit_zero (S := S1x128) hz, View.ld_unit_zero (S := S128x128) hz]
  rw [Body.pay1_eq]
  obtain ⟨e0, e1, e2, e3, e4, e5, e6, e7⟩ := idx_facts t
  funext j
  exact reluTimesW_tile (V c main_v43) (V c main_v44) (V c main_arg4) (iblk1 V c 0 t) (iblk1 V c 1 t) (iblk1 V c 2 t)
    (t.val * 5000) ((cfg1.win 3).blk t).view.emb
    (fun y => by show win1_3.index t (0 : Fin 2) * 5000 + 1 * (y 0).val = t.val * 5000 + (y 0).val; rw [e6]; omega)
    (fun y => by show win1_3.index t (1 : Fin 2) * 128 + 1 * (y 1).val = (y 1).val; rw [e7]; omega)
    (fun p k r hr => congrArg (V c main_v43) (funext fun a => Fin.ext (by
      match a with
      | ⟨0, _⟩ => show win1_0.index t (0 : Fin 2) * 5000 + 1 * p.val = r.val; rw [e0]; omega
      | ⟨1, _⟩ => show win1_0.index t (1 : Fin 2) * 128 + 1 * k.val = k.val; rw [e1]; omega)))
    (fun k => congrArg (V c main_v44) (funext fun a => Fin.ext (by
      match a with
      | ⟨0, _⟩ => show win1_1.index t (0 : Fin 2) * 1 + 1 * 0 = 0; rw [e2]
      | ⟨1, _⟩ => show win1_1.index t (1 : Fin 2) * 128 + 1 * k.val = k.val; rw [e3]; omega)))
    (fun k q => congrArg (V c main_arg4) (funext fun a => Fin.ext (by
      match a with
      | ⟨0, _⟩ => show win1_2.index t (0 : Fin 2) * 128 + 1 * k.val = k.val; rw [e4]; omega
      | ⟨1, _⟩ => show win1_2.index t (1 : Fin 2) * 128 + 1 * q.val = q.val; rw [e5]; omega)))
    j

/-- An index of the output array is in point `t`'s block iff each coordinate is in the block's range. -/
theorem mem_blk (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v45).slice (win1_3.rect t)).set ↔ _
  rw [View.set_slice_whole, Rect.mem_set_unit]
  exact Iff.rfl

/-- Row `r` of the output is written by point `r / 5000`: the tiles cover the array. -/
theorem cover (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ : ∃ t : Fin cfg1.N, t.val = (i 0).val / 5000 :=
    ⟨⟨(i 0).val / 5000, lt_of_lt_of_eq (by omega : (i 0).val / 5000 < 20) N_1.symm⟩, rfl⟩
  obtain ⟨-, -, -, -, -, -, e6, e7⟩ := idx_facts t
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; rw [e6, ht]; omega
  | ⟨1, _⟩ => show win1_3.index t (1 : Fin 2) * 128 ≤ (i 1).val ∧ (i 1).val < win1_3.index t (1 : Fin 2) * 128 + 128; rw [e7]; omega

/-- After the unit's last write-back its output array is `max (A + b, 0) · W` of the arrays it was entered with. -/
theorem final (c : Dev nD) : (dat1 V c).arrAt 3 cfg1.N = reluTimesW (V c main_v43) (V c main_v44) (V c main_arg4) :=
  (dat1 V c).arrAt_eq_of_cover 3 _ (fun t _ => flushed_eq V c t) cover

end Cert.Gcn.Unit1

end
-- ==== Proof.Unit2.lean ====
/-
  The third tiled unit as one whole-array function: its output array ends at `(X + max (A + b, 0)) · ½`.

  At grid point `t` (of 20) the unit reads rows `5000 t … 5000 t + 4999` of `X` and of `A` and the bias row `b`, and
  writes the same rows of its output, entry by entry; the tiles cover the output.
-/
import proofs.«155755_j46780783788357_1_alg».proof.Proof.Gen.KernelIdeal.Frame
import proofs.«155755_j46780783788357_1_alg».proof.Proof.Body
import proofs.«155755_j46780783788357_1_alg».proof.Proof.Tile

set_option maxRecDepth 16384

noncomputable section

namespace Cert.Gcn.Unit2

open Idealize.ShloMosaic Idealize.ShloMosaic.TcCoe Idealize.ShloMosaic.ValueIdx Idealize.SL.Sem
open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The block indices, decided over the grid: the three row-tiled windows sit at block row `t`; the bias row is one block. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point `t` writes back is tile `t` of `(X + max (A + b, 0)) · ½` of the arrays as the unit finds them. -/
theorem flushed_eq (c : Dev nD) (t : Fin cfg2.N) :
    (dat2 V c).flushed 3 t
      = ((cfg2.win 3).blk t).view.read (Elt Ideal) (mixHalf (V c main_arg0) (V c main_v58) (V c main_v59)) := by
  show (cfg2.win 3).cut (grid2.coords t) ((dat2 V c).after 3 t) = _
  rw [after2_3]
  unfold out2_3
  rw [View.canon_unit_zero hz]
  simp only [View.ld_unit_zero (S := S5000x128) hz, View.ld_unit_zero (S := S1x128) hz]
  rw [Body.pay2_eq]
  obtain ⟨e0, e1, e2, e3, e4, e5, e6, e7⟩ := idx_facts t
  funext j
  exact mixHalf_tile (V c main_arg0) (V c main_v58) (V c main_v59) (iblk2 V c 0 t) (iblk2 V c 1 t) (iblk2 V c 2 t)
    (t.val * 5000) ((cfg2.win 3).blk t).view.emb
    (fun y => by show win2_3.index t (0 : Fin 2) * 5000 + 1 * (y 0).val = t.val * 5000 + (y 0).val; rw [e6]; omega)
    (fun y => by show win2_3.index t (1 : Fin 2) * 128 + 1 * (y 1).val = (y 1).val; rw [e7]; omega)
    (fun p k r hr => congrArg (V c main_arg0) (funext fun a => Fin.ext (by
      match a with
      | ⟨0, _⟩ => show win2_0.index t (0 : Fin 2) * 5000 + 1 * p.val = r.val; rw [e0]; omega
      | ⟨1, _⟩ => show win2_0.index t (1 : Fin 2) * 128 + 1 * k.val = k.val; rw [e1]; omega)))
    (fun p k r hr => congrArg (V c main_v58) (funext fun a => Fin.ext (by
      match a with
      | ⟨0, _⟩ => show win2_1.index t (0 : Fin 2) * 5000 + 1 * p.val = r.val; rw [e2]; omega
      | ⟨1, _⟩ => show win2_1.index t (1 : Fin 2) * 128 + 1 * k.val = k.val; rw [e3]; omega)))
    (fun k => congrArg (V c main_v59) (funext fun a => Fin.ext (by
      match a with
      | ⟨0, _⟩ => show win2_2.index t (0 : Fin 2) * 1 + 1 * 0 = 0; rw [e4]
      | ⟨1, _⟩ => show win2_2.index t (1 : Fin 2) * 128 + 1 * k.val = k.val; rw [e5]; omega)))
    j

/-- An index of the output array is in point `t`'s block iff each coordinate is in the block's range. -/
theorem mem_blk (t : Fin cfg2.N) (i : S100000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v60).slice (win2_3.rect t)).set ↔ _
  rw [View.set_slice_whole, Rect.mem_set_unit]
  exact Iff.rfl

/-- Row `r` of the output is written by point `r / 5000`: the tiles cover the array. -/
theorem cover (i : S100000x128.Idx) : ∃ t : Fin cfg2.N, (cfg2.win 3).flush t = true ∧ i ∈ ((cfg2.win 3).blk t).view.set := by
  have hi0 : (i 0).val < 100000 := (i 0).isLt
  have hi1 : (i 1).val < 128 := (i 1).isLt
  obtain ⟨t, ht⟩ : ∃ t : Fin cfg2.N, t.val = (i 0).val / 5000 :=
    ⟨⟨(i 0).val / 5000, lt_of_lt_of_eq (by omega : (i 0).val / 5000 < 20) N_2.symm⟩, rfl⟩
  obtain ⟨-, -, -, -, -, -, e6, e7⟩ := idx_facts t
  refine ⟨t, flush2_3 t, ?_⟩
  rw [mem_blk]
  intro a
  match a with
  | ⟨0, _⟩ => show win2_3.index t (0 : Fin 2) * 5000 ≤ (i 0).val ∧ (i 0).val < win2_3.index t (0 : Fin 2) * 5000 + 5000; rw [e6, ht]; omega
  | ⟨1, _⟩ => show win2_3.index t (1 : Fin 2) * 128 ≤ (i 1).val ∧ (i 1).val < win2_3.index t (1 : Fin 2) * 128 + 128; rw [e7]; omega

/-- After the unit's last write-back its output array is `(X + max (A + b, 0)) · ½` of the arrays it was entered with. -/
theorem final (c : Dev nD) : (dat2 V c).arrAt 3 cfg2.N = mixHalf (V c main_arg0) (V c main_v58) (V c main_v59) :=
  (dat2 V c).arrAt_eq_of_cover 3 _ (fun t _ => flushed_eq V c t) cover

end Cert.Gcn.Unit2

end
-- ==== Proof.HostChain.lean ====
/-
  The graph part of the block, as functions: the edge endpoints with self-loops, the symmetric
  normalisation weights, and one normalised gather / scale / scatter-add hop.

  From the `[2, E]` edge list: `srcOf` is row 0 followed by the self-loops `0 … N − 1`, `dstOf` row 1 followed by
  the same. The degree of a node counts the (self-looped) edges ending in it; an edge's weight is
  `deg(src)^(-1/2) · deg(dst)^(-1/2)`, with `0` in place of the inverse root where the degree is not positive. One hop sends
  every edge's source row, scaled by the edge's weight, to the edge's destination row, and adds up what arrives
  at each node. Both programs spell these steps with the same host operations in the same order, so the steps
  are named here once, applied to whatever features travel, and never opened again.
-/
import proofs.«155755_j46780783788357_1_alg».proof.KernelIdeal
import proofs.«155755_j46780783788357_1_alg».proof.Proof.Gen.KernelIdeal

noncomputable section

namespace Cert.Gcn.Graph

open Idealize.ShloMosaic Cert.KernelIdeal Cert.KernelIdeal.Facts₀ Cert.KernelIdeal.Facts

variable {F : FTy → Type} [FloatOps F]

/-- The `[2, E]` edge list; the `E + N` edge endpoints once self-loops are appended; an `[N, 128]` feature array;
    one weight per (self-looped) edge. -/
abbrev Edges (F : FTy → Type) : Type := (⟨S2x1600000, .i32⟩ : BufTy).Contents (Elt F)
abbrev Ends (F : FTy → Type) : Type := (⟨S1700000, .i32⟩ : BufTy).Contents (Elt F)
abbrev Feat (F : FTy → Type) : Type := (⟨S100000x128, .f32⟩ : BufTy).Contents (Elt F)
abbrev EdgeW (F : FTy → Type) : Type := (⟨S1700000, .f32⟩ : BufTy).Contents (Elt F)

/-- The sources: row 0 of the edge list, then the self-loops `0 … N − 1`. -/
def srcOf (e : Edges F) : Ends F :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The destinations: row 1 of the edge list, then the self-loops. -/
def dstOf (e : Edges F) : Ends F :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- Node numbers as gather indices: a negative number counts from the end (`+ N`), as array indexing does. -/
def wrapIdx (s : Ends F) : (⟨S1700000x1, .i32⟩ : BufTy).Contents (Elt F) :=
  broadcastInDim S1700000x1 ![0] bcast_S1700000_S1700000x1_0 (select (cmpi .slt s (broadcastInDim S1700000 ![] bcast_S_S1700000 (constantI S_ 32 0#32))) (addi s (broadcastInDim S1700000 ![] bcast_S_S1700000 (constantI S_ 32 100000#32))) s)

/-- The degree of every node: a one added at the destination of every (self-looped) edge. -/
def deg (d : Ends F) : (⟨S100000, .f32⟩ : BufTy).Contents (Elt F) :=
  Host.scatterAdd scatter_S100000_S1700000x1_S1700000_n_0_0_1 (broadcastInDim S100000 ![] bcast_S_S100000 (constant S_ .f32 0x00000000#32)) (broadcastInDim S1700000x1 ![0] bcast_S1700000_S1700000x1_0 d) (broadcastInDim S1700000 ![] bcast_S_S1700000 (constant S_ .f32 0x3F800000#32))

/-- `deg^(-1/2)` where the degree is positive, `0` elsewhere. -/
def degInvSqrt (d : Ends F) : (⟨S100000, .f32⟩ : BufTy).Contents (Elt F) :=
  select (cmpf (F := F) .ogt (deg d) (broadcastInDim S100000 ![] bcast_S_S100000 (constant S_ .f32 0x00000000#32))) (Host.rsqrt (deg d)) (broadcastInDim S100000 ![] bcast_S_S100000 (id (constant S_ .f32 0x00000000#32)))

/-- The weight of every edge: `deg(src)^(-1/2) · deg(dst)^(-1/2)`. -/
def normOf (s d : Ends F) : EdgeW F :=
  mulf (Host.gather gather_S100000_S1700000x1_S1700000_n_0_n_n_0_1_1 (degInvSqrt d) (wrapIdx s)) (Host.gather gather_S100000_S1700000x1_S1700000_n_0_n_n_0_1_1 (degInvSqrt d) (wrapIdx d))

/-- One hop: every edge carries its source's row of `h`, scaled by the edge's weight, to its destination, where
    the arriving rows are added up. -/
def hop (s d : Ends F) (nrm : EdgeW F) (h : Feat F) : Feat F :=
  Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 d) (mulf (Host.gather gather_S100000x128_S1700000x1_S1700000x128_1_0_n_n_0_1_1128 h (wrapIdx s)) (broadcastInDim S1700000x128 ![0, 1] bcast_S1700000x1_S1700000x128_0_1 (broadcastInDim S1700000x1 ![0] bcast_S1700000_S1700000x1_0 nrm)))

end Cert.Gcn.Graph

end
-- ==== Proof.KernelHost.lean ====
/-
  What the idealized tiled program's stretches of host operations leave in the buffers the later steps read,
  from ANY contents `G` the stretch is entered with.

  Before the first unit: the edge endpoints with self-loops, the degree's positivity mask and inverse root, the
  masked inverse root, and the edge weights. Between the units: one hop of the previous unit's output, and the
  next bias laid out as a row. Everything else a stretch does not write it leaves as it was.
-/
import proofs.«155755_j46780783788357_1_alg».proof.Proof.Gen.KernelIdeal.Launch
import proofs.«155755_j46780783788357_1_alg».proof.Proof.HostChain
import Idealize.ShloMosaic.Lib.StableHlo.Run
import Idealize.ShloMosaic.PureOps.Ideal

set_option maxRecDepth 16384

noncomputable section

namespace Cert.Gcn.Kernel

open Idealize.ShloMosaic Idealize.ShloMosaic.TcCoe Idealize.ShloMosaic.StableHlo Idealize.SL.Sem
open Cert.KernelIdeal Cert.KernelIdeal.Gen Cert.Gcn.Graph

/-- A buffer none of a line's operations writes keeps its contents. -/
theorem keep {ops : List (HloOp τ sig (Elt Ideal))} {G : Valuation τ sig (Elt Ideal)} {b : DevRef τ sig}
    (h : ∀ op ∈ ops, b ∉ op.writes) : StableHlo.after ops G b = G b :=
  StableHlo.after_of_forall_not_mem ops G h

/-- "No operation of this stretch writes this buffer": the stretch's result buffers listed, each told apart from
    the buffer by deciding which reference is which. -/
macro "not_written" : tactic => `(tactic| (
  refine List.forall_iff_forall_mem.mp ?_
  simp only [hostOps0, hostOps0_1, hostOps0_2, hostOps1, hostOps2, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

variable (G : Valuation τ sig (Elt Ideal))

/-! ## The first stretch: endpoints, degrees -/

theorem ops0_src : StableHlo.after hostOps0 G (Proc.devRef .tc main_v5) = srcOf (G (Proc.devRef .tc main_arg1)) := by
  dsimp only [hostOps0]; after_results; all_goals rfl

theorem ops0_dst : StableHlo.after hostOps0 G (Proc.devRef .tc main_v6) = dstOf (G (Proc.devRef .tc main_arg1)) := by
  dsimp only [hostOps0]; after_results; all_goals rfl

theorem ops0_pos : StableHlo.after hostOps0 G (Proc.devRef .tc main_v12)
    = cmpf (F := Ideal) .ogt (deg (dstOf (G (Proc.devRef .tc main_arg1)))) (broadcastInDim S100000 ![] bcast_S_S100000 (constant S_ .f32 0x00000000#32)) := by
  dsimp only [hostOps0]; after_results; all_goals rfl

theorem ops0_rsqrt : StableHlo.after hostOps0 G (Proc.devRef .tc main_v13) = Host.rsqrt (deg (dstOf (G (Proc.devRef .tc main_arg1)))) := by
  dsimp only [hostOps0]; after_results; all_goals rfl

theorem ops0_zero : StableHlo.after hostOps0 G (Proc.devRef .tc main_cst_2) = constant (F := Ideal) S_ .f32 0x00000000#32 := by
  dsimp only [hostOps0]; after_results; all_goals rfl

/-! ## The second stretch: the inverse root where the degree is positive, zero elsewhere -/

theorem ops01_invsqrt : StableHlo.after hostOps0_1 G (Proc.devRef .tc main_v14)
    = select (G (Proc.devRef .tc main_v12)) (G (Proc.devRef .tc main_v13)) (broadcastInDim S100000 ![] bcast_S_S100000 (id (G (Proc.devRef .tc main_cst_2)))) := by
  dsimp only [hostOps0_1]; after_results; all_goals rfl

/-! ## The third stretch: the edge weights -/

set_option maxHeartbeats 2000000 in
theorem ops02_norm : StableHlo.after hostOps0_2 G (Proc.devRef .tc main_v29)
    = (mulf (F := Ideal) (φ := .f32) (Host.gather gather_S100000_S1700000x1_S1700000_n_0_n_n_0_1_1 (G (Proc.devRef .tc main_v14)) (wrapIdx (G (Proc.devRef .tc main_v5))))
        (Host.gather gather_S100000_S1700000x1_S1700000_n_0_n_n_0_1_1 (G (Proc.devRef .tc main_v14)) (wrapIdx (G (Proc.devRef .tc main_v6)))) : EdgeW Ideal) := by
  dsimp only [hostOps0_2]; after_results; all_goals rfl

/-! ## Between the first and the second unit: a hop of the first unit's output, the first bias as a row -/

set_option maxHeartbeats 2000000 in
theorem ops1_hop : StableHlo.after hostOps1 G (Proc.devRef .tc main_v43)
    = hop (G (Proc.devRef .tc main_v5)) (G (Proc.devRef .tc main_v6)) (G (Proc.devRef .tc main_v29)) (G (Proc.devRef .tc main_v30)) := by
  dsimp only [hostOps1]; after_results; all_goals rfl

theorem ops1_bias : StableHlo.after hostOps1 G (Proc.devRef .tc main_v44) = shapeCast S1x128 (G (Proc.devRef .tc main_arg3)) shapeCasts_S128_S1x128 := by
  dsimp only [hostOps1]; after_results; all_goals rfl

/-! ## Between the second and the third unit: a hop of the second unit's output, the second bias as a row -/

set_option maxHeartbeats 2000000 in
theorem ops2_hop : StableHlo.after hostOps2 G (Proc.devRef .tc main_v58)
    = hop (G (Proc.devRef .tc main_v5)) (G (Proc.devRef .tc main_v6)) (G (Proc.devRef .tc main_v29)) (G (Proc.devRef .tc main_v45)) := by
  dsimp only [hostOps2]; after_results; all_goals rfl

theorem ops2_bias : StableHlo.after hostOps2 G (Proc.devRef .tc main_v59) = shapeCast S1x128 (G (Proc.devRef .tc main_arg5)) shapeCasts_S128_S1x128 := by
  dsimp only [hostOps2]; after_results; all_goals rfl

end Cert.Gcn.Kernel

end
-- ==== Proof.Block.lean ====
/-
  The whole two-layer block as ONE function of the six arguments, on the extended reals:

      out = (x + max (hop (max (hop (x · W₁) + b₁, 0) · W₂) + b₂, 0)) · ½

  where `hop` is the normalised gather / scale / scatter-add over the self-looped edge list and the edge weights
  are computed once from the edge list. Both programs are shown to end at this function of their arguments.
-/
import proofs.«155755_j46780783788357_1_alg».proof.Proof.Spec
import proofs.«155755_j46780783788357_1_alg».proof.Proof.HostChain

noncomputable section

namespace Cert.Gcn

open Idealize.ShloMosaic Cert.Gcn.Graph

/-- The block's result from the node features `x`, the edge list `e`, and the two layers' weights and biases. -/
def block (x : Feat Ideal) (e : Edges Ideal) (w1 : Mat 128 128) (b1 : (⟨1, ![128]⟩ : Shape).Idx → EReal)
    (w2 : Mat 128 128) (b2 : (⟨1, ![128]⟩ : Shape).Idx → EReal) : Feat Ideal :=
  mixHalf (n := 100000) x
    (hop (srcOf e) (dstOf e) (normOf (srcOf e) (dstOf e))
      (reluTimesW (n := 100000) (hop (srcOf e) (dstOf e) (normOf (srcOf e) (dstOf e)) (timesW (n := 100000) x w1)) (row b1) w2))
    (row b2)

end Cert.Gcn

end
-- ==== Proof.KernelValue.lean ====
/-
  The idealized tiled program's result array is the block function of its arguments.

  The program's buffers are followed from the launch to the return, boundary by boundary:
    * at the first unit's entry the host stretches have left the edge endpoints (with self-loops) and the edge
      weights, and no argument has been written;
    * the first unit leaves `x · W₁` in its output array (its tiles cover the array) and touches nothing else;
    * the next stretch leaves one hop of that array and the first bias laid out as a row;
    * the second unit leaves `max (hop + b₁, 0) · W₂`;
    * the next stretch leaves one hop of that and the second bias as a row;
    * the third unit leaves `(x + max (hop + b₂, 0)) · ½` in the result array.
  The endpoints and the edge weights are computed once and are read again, unchanged, by the second hop.
-/
import proofs.«155755_j46780783788357_1_alg».proof.Proof.Gen.KernelIdeal.Frame
import proofs.«155755_j46780783788357_1_alg».proof.Proof.Unit0
import proofs.«155755_j46780783788357_1_alg».proof.Proof.Unit1
import proofs.«155755_j46780783788357_1_alg».proof.Proof.Unit2
import proofs.«155755_j46780783788357_1_alg».proof.Proof.KernelHost
import proofs.«155755_j46780783788357_1_alg».proof.Proof.Block
import Idealize.ShloMosaic.Lib.ValueLayout

set_option maxRecDepth 16384

noncomputable section

namespace Cert.Gcn.Kernel

open Idealize.ShloMosaic Idealize.ShloMosaic.TcCoe Idealize.ShloMosaic.StableHlo Idealize.ShloMosaic.ValueIdx Idealize.SL.Sem
open Cert.KernelIdeal Cert.KernelIdeal.Gen Cert.Gcn Cert.Gcn.Graph

/-- A length-128 bias reshaped to `[1, 128]` is the bias laid out as a row. -/
theorem bias_row (b : (⟨S128, .f32⟩ : BufTy).Contents (Elt Ideal)) : shapeCast S1x128 b shapeCasts_S128_S1x128 = row b := by
  funext j
  obtain ⟨u, k, rfl⟩ : ∃ (u : Fin 1) (k : Fin 128), j = ix2 u k := ⟨j 0, j 1, eq_ix2 j⟩
  exact shapeCast_a_1a_apply b shapeCasts_S128_S1x128 u k

variable (m : (ℓ : Loc nD τ sig) → Buf (Elt Ideal) ℓ) (ρ : Dev nD → PrngReg) (c : Dev nD)

/-! ## At the first unit's entry -/

/-- A buffer none of the three opening stretches writes still holds its launch contents. -/
theorem W3_keep (b : DevRef τ sig) (h2 : ∀ op ∈ (hostOps0_2 : List (HloOp τ sig (Elt Ideal))), b ∉ op.writes)
    (h1 : ∀ op ∈ (hostOps0_1 : List (HloOp τ sig (Elt Ideal))), b ∉ op.writes)
    (h0 : ∀ op ∈ (hostOps0 : List (HloOp τ sig (Elt Ideal))), b ∉ op.writes) : W3 m ρ c b = W0 m ρ c b :=
  (keep (G := W2 m ρ c) h2).trans ((keep (G := W1 m ρ c) h1).trans (keep (G := W0 m ρ c) h0))

theorem W3_x : W3 m ρ c (Proc.devRef .tc main_arg0) = m ((c : Thread nD τ).loc main_arg0) :=
  W3_keep m ρ c _ (by not_written) (by not_written) (by not_written)
theorem W3_w1 : W3 m ρ c (Proc.devRef .tc main_arg2) = m ((c : Thread nD τ).loc main_arg2) :=
  W3_keep m ρ c _ (by not_written) (by not_written) (by not_written)
theorem W3_b1 : W3 m ρ c (Proc.devRef .tc main_arg3) = m ((c : Thread nD τ).loc main_arg3) :=
  W3_keep m ρ c _ (by not_written) (by not_written) (by not_written)
theorem W3_w2 : W3 m ρ c (Proc.devRef .tc main_arg4) = m ((c : Thread nD τ).loc main_arg4) :=
  W3_keep m ρ c _ (by not_written) (by not_written) (by not_written)
theorem W3_b2 : W3 m ρ c (Proc.devRef .tc main_arg5) = m ((c : Thread nD τ).loc main_arg5) :=
  W3_keep m ρ c _ (by not_written) (by not_written) (by not_written)

/-- The sources and the destinations, with self-loops. -/
theorem W3_src : W3 m ρ c (Proc.devRef .tc main_v5) = srcOf (m ((c : Thread nD τ).loc main_arg1)) :=
  (keep (G := W2 m ρ c) (by not_written)).trans ((keep (G := W1 m ρ c) (by not_written)).trans (ops0_src (W0 m ρ c)))
theorem W3_dst : W3 m ρ c (Proc.devRef .tc main_v6) = dstOf (m ((c : Thread nD τ).loc main_arg1)) :=
  (keep (G := W2 m ρ c) (by not_written)).trans ((keep (G := W1 m ρ c) (by not_written)).trans (ops0_dst (W0 m ρ c)))

/-- The masked inverse root of the degrees, after the second stretch. -/
theorem W2_invsqrt : W2 m ρ c (Proc.devRef .tc main_v14) = degInvSqrt (dstOf (m ((c : Thread nD τ).loc main_arg1))) := by
  have hpos : W1 m ρ c (Proc.devRef .tc main_v12) = _ := ops0_pos (W0 m ρ c)
  have hrs : W1 m ρ c (Proc.devRef .tc main_v13) = _ := ops0_rsqrt (W0 m ρ c)
  have hzero : W1 m ρ c (Proc.devRef .tc main_cst_2) = _ := ops0_zero (W0 m ρ c)
  refine (ops01_invsqrt (W1 m ρ c)).trans ?_
  rw [hpos, hrs, hzero]
  rfl

/-- The edge weights. -/
theorem W3_norm : W3 m ρ c (Proc.devRef .tc main_v29)
    = normOf (srcOf (m ((c : Thread nD τ).loc main_arg1))) (dstOf (m ((c : Thread nD τ).loc main_arg1))) := by
  have hs : W2 m ρ c (Proc.devRef .tc main_v5) = srcOf (m ((c : Thread nD τ).loc main_arg1)) :=
    (keep (G := W1 m ρ c) (by not_written)).trans (ops0_src (W0 m ρ c))
  have hd : W2 m ρ c (Proc.devRef .tc main_v6) = dstOf (m ((c : Thread nD τ).loc main_arg1)) :=
    (keep (G := W1 m ρ c) (by not_written)).trans (ops0_dst (W0 m ρ c))
  refine (ops02_norm (W2 m ρ c)).trans ?_
  rw [W2_invsqrt m ρ c, hs, hd]
  rfl

/-! ## After the first unit -/

theorem W4_out : W4 m ρ c (Proc.devRef .tc main_v30)
    = timesW (n := 100000) (m ((c : Thread nD τ).loc main_arg0)) (m ((c : Thread nD τ).loc main_arg2)) := by
  refine ((W4_arr m ρ c 2).trans (Unit0.final (V3 m ρ) c)).trans ?_
  show timesW (n := 100000) (W3 m ρ c (Proc.devRef .tc main_arg0)) (W3 m ρ c (Proc.devRef .tc main_arg2)) = _
  rw [W3_x, W3_w1]

/-! ## At the second unit's entry -/

theorem W5_hop : W5 m ρ c (Proc.devRef .tc main_v43)
    = hop (srcOf (m ((c : Thread nD τ).loc main_arg1))) (dstOf (m ((c : Thread nD τ).loc main_arg1)))
        (normOf (srcOf (m ((c : Thread nD τ).loc main_arg1))) (dstOf (m ((c : Thread nD τ).loc main_arg1))))
        (timesW (n := 100000) (m ((c : Thread nD τ).loc main_arg0)) (m ((c : Thread nD τ).loc main_arg2))) := by
  refine (ops1_hop (W4 m ρ c)).trans ?_
  rw [W4_out, W4_of_ne m ρ c main_v5 (by decide), W4_of_ne m ρ c main_v6 (by decide), W4_of_ne m ρ c main_v29 (by decide),
    W3_src, W3_dst, W3_norm]

theorem W5_bias : W5 m ρ c (Proc.devRef .tc main_v44) = row (m ((c : Thread nD τ).loc main_arg3)) := by
  refine (ops1_bias (W4 m ρ c)).trans ?_
  rw [W4_of_ne m ρ c main_arg3 (by decide), W3_b1, bias_row]

theorem W5_w2 : W5 m ρ c (Proc.devRef .tc main_arg4) = m ((c : Thread nD τ).loc main_arg4) :=
  (keep (G := W4 m ρ c) (by not_written)).trans ((W4_of_ne m ρ c main_arg4 (by decide)).trans (W3_w2 m ρ c))

/-! ## After the second unit -/

theorem W6_out : W6 m ρ c (Proc.devRef .tc main_v45)
    = reluTimesW (n := 100000)
        (hop (srcOf (m ((c : Thread nD τ).loc main_arg1))) (dstOf (m ((c : Thread nD τ).loc main_arg1)))
          (normOf (srcOf (m ((c : Thread nD τ).loc main_arg1))) (dstOf (m ((c : Thread nD τ).loc main_arg1))))
          (timesW (n := 100000) (m ((c : Thread nD τ).loc main_arg0)) (m ((c : Thread nD τ).loc main_arg2))))
        (row (m ((c : Thread nD τ).loc main_arg3))) (m ((c : Thread nD τ).loc main_arg4)) := by
  refine ((W6_arr m ρ c 3).trans (Unit1.final (V5 m ρ) c)).trans ?_
  show reluTimesW (n := 100000) (W5 m ρ c (Proc.devRef .tc main_v43)) (W5 m ρ c (Proc.devRef .tc main_v44)) (W5 m ρ c (Proc.devRef .tc main_arg4)) = _
  rw [W5_hop, W5_bias, W5_w2]

/-- A buffer that neither unit writes and the middle stretch does not write is, at the second unit's exit, what it
    was at the first unit's entry. -/
theorem W6_keep (b : Ref sig .tc) (h1 : ∀ w, Pipeline.arrRef spec1 w ≠ b)
    (hs : ∀ op ∈ (hostOps1 : List (HloOp τ sig (Elt Ideal))), Proc.devRef .tc b ∉ op.writes)
    (h0 : ∀ w, Pipeline.arrRef spec0 w ≠ b) : W6 m ρ c (Proc.devRef .tc b) = W3 m ρ c (Proc.devRef .tc b) :=
  (W6_of_ne m ρ c b h1).trans ((keep (G := W4 m ρ c) hs).trans (W4_of_ne m ρ c b h0))

/-! ## At the third unit's entry -/

theorem W7_hop : W7 m ρ c (Proc.devRef .tc main_v58)
    = hop (srcOf (m ((c : Thread nD τ).loc main_arg1))) (dstOf (m ((c : Thread nD τ).loc main_arg1)))
        (normOf (srcOf (m ((c : Thread nD τ).loc main_arg1))) (dstOf (m ((c : Thread nD τ).loc main_arg1))))
        (reluTimesW (n := 100000)
          (hop (srcOf (m ((c : Thread nD τ).loc main_arg1))) (dstOf (m ((c : Thread nD τ).loc main_arg1)))
            (normOf (srcOf (m ((c : Thread nD τ).loc main_arg1))) (dstOf (m ((c : Thread nD τ).loc main_arg1))))
            (timesW (n := 100000) (m ((c : Thread nD τ).loc main_arg0)) (m ((c : Thread nD τ).loc main_arg2))))
          (row (m ((c : Thread nD τ).loc main_arg3))) (m ((c : Thread nD τ).loc main_arg4))) := by
  refine (ops2_hop (W6 m ρ c)).trans ?_
  rw [W6_out, W6_keep m ρ c main_v5 (by decide) (by not_written) (by decide),
    W6_keep m ρ c main_v6 (by decide) (by not_written) (by decide),
    W6_keep m ρ c main_v29 (by decide) (by not_written) (by decide), W3_src, W3_dst, W3_norm]

theorem W7_bias : W7 m ρ c (Proc.devRef .tc main_v59) = row (m ((c : Thread nD τ).loc main_arg5)) := by
  refine (ops2_bias (W6 m ρ c)).trans ?_
  rw [W6_keep m ρ c main_arg5 (by decide) (by not_written) (by decide), W3_b2, bias_row]

/-- The node features are still the launch's: no stretch writes them and the units only read them. -/
theorem W7_x : W7 m ρ c (Proc.devRef .tc main_arg0) = m ((c : Thread nD τ).loc main_arg0) :=
  ((W8_arr m ρ c 0).trans (((dat2 (V7 m ρ) c).arrAt_in 0 rfl _).trans (A_eq2 (V7 m ρ) c 0))).symm.trans (W8_main_arg0 m ρ c)

/-! ## After the third unit -/

/-- The result array at the return is the block function of the six arguments. -/
theorem result_eq : W8 m ρ c (Proc.devRef .tc main_v60)
    = block (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine ((W8_arr m ρ c 3).trans (Unit2.final (V7 m ρ) c)).trans ?_
  show mixHalf (n := 100000) (W7 m ρ c (Proc.devRef .tc main_arg0)) (W7 m ρ c (Proc.devRef .tc main_v58)) (W7 m ρ c (Proc.devRef .tc main_v59)) = _
  rw [W7_x, W7_hop, W7_bias]
  rfl

end Cert.Gcn.Kernel

end
-- ==== Proof.RefValue.lean ====
/-
  The reference program ends at the block function of its arguments.

  Its run's result is the composed term of its host operations. Read from the inside out that term is: the host
  matrix product `x · W₁`; one hop over the edge list; the bias added along rows and the clamp at zero; the
  product with `W₂`; the second hop (the program recomputes the same edge weights from the same edge list); bias
  and clamp again; and the average with `x`. The hops are the named host functions, applied and never
  opened; the dense steps are read entry by entry: a host matrix product is the sum of products over the
  contracted index, and a bias broadcast along rows reads the bias at the entry's column.
-/
import proofs.«155755_j46780783788357_1_alg».proof.Proof.RefRunPatched
import proofs.«155755_j46780783788357_1_alg».proof.Proof.Gen.ReferenceIdeal
import proofs.«155755_j46780783788357_1_alg».proof.Proof.Block
import proofs.«155755_j46780783788357_1_alg».proof.Proof.LibPlainDot
import Idealize.ShloMosaic.Lib.Pipeline.Value

set_option maxRecDepth 16384

noncomputable section

namespace Cert.Gcn.Ref

open Idealize.ShloMosaic Idealize.ShloMosaic.TcCoe Idealize.ShloMosaic.ValueIdx Idealize.SL.Sem
open Cert.ReferenceIdeal Cert.ReferenceIdeal.Facts₀ Cert.ReferenceIdeal.Facts Cert.Gcn

/-- The reference's 100000 × 128 by 128 × 128 host product is a plain one. -/
theorem plain : Cert.PlainDot.IsPlain dot_S100000x128_S128x128_S100000x128_1_0_0_1_n_n :=
  ⟨rfl, rfl, rfl, rfl, rfl, rfl⟩

/-- A bias vector broadcast to a row and then along all rows reads, at `(p, k)`, the bias at `k`. -/
theorem bias_at (b : (⟨S128, .f32⟩ : BufTy).Contents (Elt Ideal)) (p : Fin 100000) (k : Fin 128) :
    broadcastInDim S100000x128 ![0, 1] bcast_S1x128_S100000x128_0_1 (broadcastInDim S1x128 ![1] bcast_S128_S1x128_1 b) (ix2 p k) = b (ix1 k) :=
  (broadcastInDim_apply _ bcast_S1x128_S100000x128_0_1 _ (ix2 p k) (ix2 (0 : Fin 1) k) (fun a => match a with
    | ⟨0, _⟩ => by show 0 = if (1 : Nat) = 1 then 0 else p.val; rw [if_pos rfl]
    | ⟨1, _⟩ => by show k.val = if (128 : Nat) = 1 then 0 else k.val; rw [if_neg (by decide)])).trans
  (broadcastInDim_apply _ bcast_S128_S1x128_1 b (ix2 (0 : Fin 1) k) (ix1 k) (fun a => match a with
    | ⟨0, _⟩ => by show k.val = if (128 : Nat) = 1 then 0 else k.val; rw [if_neg (by decide)]))

/-- A scalar constant broadcast over the array reads, everywhere, its value. -/
theorem splat_at (w : BitVec 32) (i : S100000x128.Idx) :
    broadcastInDim S100000x128 ![] bcast_S_S100000x128 (constant (F := Ideal) S_ .f32 w) i = FloatOps.ofBits (F := Ideal) .f32 w :=
  broadcastInDim_apply _ bcast_S_S100000x128 (constant (F := Ideal) S_ .f32 w) i (fun a => a.elim0) (fun a => a.elim0)

/-- The host product is `x · W`. -/
theorem dot_eq (X : Graph.Feat Ideal) (W : Mat 128 128) :
    Host.dotGeneral (F := Ideal) (φ₁ := .f32) (φ₂ := .f32) dot_S100000x128_S128x128_S100000x128_1_0_0_1_n_n none X W = timesW (n := 100000) X W := by
  funext j
  obtain ⟨p, q, rfl⟩ : ∃ (p : Fin 100000) (q : Fin 128), j = ix2 p q := ⟨j 0, j 1, eq_ix2 j⟩
  exact Cert.PlainDot.dotGeneral_apply dot_S100000x128_S128x128_S100000x128_1_0_0_1_n_n plain none X W p q

/-- Bias, clamp, host product: `max (A + b, 0) · W`. -/
theorem dot_relu_eq (A : Graph.Feat Ideal) (b : (⟨S128, .f32⟩ : BufTy).Contents (Elt Ideal)) (W : Mat 128 128) :
    Host.dotGeneral (F := Ideal) (φ₁ := .f32) (φ₂ := .f32) dot_S100000x128_S128x128_S100000x128_1_0_0_1_n_n none
      (maximumf (addf A (broadcastInDim S100000x128 ![0, 1] bcast_S1x128_S100000x128_0_1 (broadcastInDim S1x128 ![1] bcast_S128_S1x128_1 b)))
        (broadcastInDim S100000x128 ![] bcast_S_S100000x128 (constant S_ .f32 0x00000000#32))) W
      = reluTimesW (n := 100000) A (row b) W := by
  funext j
  obtain ⟨p, q, rfl⟩ : ∃ (p : Fin 100000) (q : Fin 128), j = ix2 p q := ⟨j 0, j 1, eq_ix2 j⟩
  refine (Cert.PlainDot.dotGeneral_apply dot_S100000x128_S128x128_S100000x128_1_0_0_1_n_n plain none _ _ p q).trans ?_
  show _ = ∑ k : Fin 128, max (A (ix2 p k) + b (ix1 k)) zero * W (ix2 k q)
  refine Finset.sum_congr rfl fun k _ => ?_
  show max (A (ix2 p k) + broadcastInDim S100000x128 ![0, 1] bcast_S1x128_S100000x128_0_1 (broadcastInDim S1x128 ![1] bcast_S128_S1x128_1 b) (ix2 p k))
      (broadcastInDim S100000x128 ![] bcast_S_S100000x128 (constant (F := Ideal) S_ .f32 0x00000000#32) (ix2 p k)) * W (ix2 k q) = _
  rw [bias_at, splat_at]

/-- Bias, clamp, average with `x`. -/
theorem mix_eq (X A : Graph.Feat Ideal) (b : (⟨S128, .f32⟩ : BufTy).Contents (Elt Ideal)) :
    mulf (addf X (maximumf (addf A (broadcastInDim S100000x128 ![0, 1] bcast_S1x128_S100000x128_0_1 (broadcastInDim S1x128 ![1] bcast_S128_S1x128_1 b)))
        (broadcastInDim S100000x128 ![] bcast_S_S100000x128 (constant (F := Ideal) S_ .f32 0x00000000#32))))
      (broadcastInDim S100000x128 ![] bcast_S_S100000x128 (constant (F := Ideal) S_ .f32 0x3F000000#32))
      = mixHalf (n := 100000) X A (row b) := by
  funext j
  obtain ⟨p, q, rfl⟩ : ∃ (p : Fin 100000) (q : Fin 128), j = ix2 p q := ⟨j 0, j 1, eq_ix2 j⟩
  show (X (ix2 p q) + max (A (ix2 p q) + broadcastInDim S100000x128 ![0, 1] bcast_S1x128_S100000x128_0_1 (broadcastInDim S1x128 ![1] bcast_S128_S1x128_1 b) (ix2 p q))
      (broadcastInDim S100000x128 ![] bcast_S_S100000x128 (constant (F := Ideal) S_ .f32 0x00000000#32) (ix2 p q)))
      * broadcastInDim S100000x128 ![] bcast_S_S100000x128 (constant (F := Ideal) S_ .f32 0x3F000000#32) (ix2 p q)
    = (X (ix2 p q) + max (A (ix2 p q) + b (ix1 q)) zero) * half
  rw [bias_at, splat_at, splat_at]

/-- The reference's composed term with its two hops named. -/
def form (x : Graph.Feat Ideal) (e : Graph.Edges Ideal) (w1 : Mat 128 128) (b1 : (⟨S128, .f32⟩ : BufTy).Contents (Elt Ideal))
    (w2 : Mat 128 128) (b2 : (⟨S128, .f32⟩ : BufTy).Contents (Elt Ideal)) : Graph.Feat Ideal :=
  mulf (addf x (maximumf (addf
      (Graph.hop (Graph.srcOf e) (Graph.dstOf e) (Graph.normOf (Graph.srcOf e) (Graph.dstOf e))
        (Host.dotGeneral (F := Ideal) (φ₁ := .f32) (φ₂ := .f32) dot_S100000x128_S128x128_S100000x128_1_0_0_1_n_n none
          (maximumf (addf
              (Graph.hop (Graph.srcOf e) (Graph.dstOf e) (Graph.normOf (Graph.srcOf e) (Graph.dstOf e))
                (Host.dotGeneral (F := Ideal) (φ₁ := .f32) (φ₂ := .f32) dot_S100000x128_S128x128_S100000x128_1_0_0_1_n_n none x w1))
              (broadcastInDim S100000x128 ![0, 1] bcast_S1x128_S100000x128_0_1 (broadcastInDim S1x128 ![1] bcast_S128_S1x128_1 b1)))
            (broadcastInDim S100000x128 ![] bcast_S_S100000x128 (constant S_ .f32 0x00000000#32))) w2))
      (broadcastInDim S100000x128 ![0, 1] bcast_S1x128_S100000x128_0_1 (broadcastInDim S1x128 ![1] bcast_S128_S1x128_1 b2)))
    (broadcastInDim S100000x128 ![] bcast_S_S100000x128 (constant S_ .f32 0x00000000#32))))
    (broadcastInDim S100000x128 ![] bcast_S_S100000x128 (constant S_ .f32 0x3F000000#32))

/-- That form is the block function. -/
theorem form_eq (x : Graph.Feat Ideal) (e : Graph.Edges Ideal) (w1 : Mat 128 128) (b1 : (⟨S128, .f32⟩ : BufTy).Contents (Elt Ideal))
    (w2 : Mat 128 128) (b2 : (⟨S128, .f32⟩ : BufTy).Contents (Elt Ideal)) : form x e w1 b1 w2 b2 = block x e w1 b1 w2 b2 := by
  unfold form block
  rw [mix_eq, dot_relu_eq, dot_eq]

/-- The run's result term IS that form: the same operations in the same order, the hops spelt out. -/
theorem res_form (m : (ℓ : Loc nD τ sig) → Buf (Elt Ideal) ℓ) (c : Dev nD) :
    Cert.ReferenceIdeal.ValueP.res_main_v94 (F := Ideal) m c
      = form (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  unfold Cert.ReferenceIdeal.ValueP.res_main_v94
  rfl

/-- The reference ends at the block function of its arguments. -/
theorem res_eq (m : (ℓ : Loc nD τ sig) → Buf (Elt Ideal) ℓ) (c : Dev nD) :
    Cert.ReferenceIdeal.ValueP.res_main_v94 (F := Ideal) m c
      = block (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) :=
  (res_form m c).trans (form_eq _ _ _ _ _ _)

end Cert.Gcn.Ref

end
-- ==== Proof.lean ====
/-
  A tiled two-layer graph-convolution block against its plain reference, on the extended reals.

  The block is  out = (x + h₂) · ½  with  h₁ = max (hop (x · W₁) + b₁, 0)  and  h₂ = max (hop (h₁ · W₂) + b₂, 0),
  where `hop` gathers every (self-looped) edge's source row, scales it by the edge's symmetric-normalisation weight
  and adds it into the edge's destination row. The tiled program computes the three dense steps — `· W₁`,
  `max (· + b₁, 0) · W₂` and the final average — in units that each handle 5000 rows at a time, and does the hops, on
  edge weights computed once, with host operations in between. The reference does everything with host operations
  (and computes the edge weights once per layer, from the same edge list).

  Both end at ONE function of the six arguments (`Cert.Gcn.block`): on the tiled side each unit's tiles are the
  matching tiles of a whole-array function and cover its output; on the reference side a host matrix product is the
  same sum of products and a broadcast bias reads the bias at the entry's column. The hops are spelt with the same
  host operations on both sides and are carried as named functions, never opened. Rounding a matrix product's
  operands to a narrower float format is the identity on the extended reals, so no property of the inputs is used.
-/
import proofs.«155755_j46780783788357_1_alg».proof.Defs
import proofs.«155755_j46780783788357_1_alg».proof.Proof.Gen.Kernel
import proofs.«155755_j46780783788357_1_alg».proof.Proof.Gen.Kernel.Frame
import proofs.«155755_j46780783788357_1_alg».proof.Proof.Gen.KernelIdeal
import proofs.«155755_j46780783788357_1_alg».proof.Proof.Gen.KernelIdeal.Frame
import proofs.«155755_j46780783788357_1_alg».proof.Proof.Gen.ReferenceIdeal
import proofs.«155755_j46780783788357_1_alg».proof.Proof.Gen.Pre_finite_inputs
import proofs.«155755_j46780783788357_1_alg».proof.Proof.KernelRun
import proofs.«155755_j46780783788357_1_alg».proof.Proof.KernelValue
import proofs.«155755_j46780783788357_1_alg».proof.Proof.RefRunPatched
import proofs.«155755_j46780783788357_1_alg».proof.Proof.RefValue
import Idealize.ShloMosaic.Adequacy
import Idealize.ShloMosaic.Init

noncomputable section

namespace Cert.Proof

open Idealize.ShloMosaic Idealize.ShloMosaic.TcCoe Idealize.SL.Sem

/-- The three programs run to the end without a fault and leave their arguments as launched. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation: there is nothing to preserve. -/
theorem preserves : Cert.preserves_Kernel_KernelIdeal := trivial

/-- From memories agreeing on the six arguments, the tiled program and the reference both end with the block
    function of those arguments in their result arrays. -/
theorem algebraic : Cert.algebraic_KernelIdeal_ReferenceIdeal := by
  intro m ρ m' ρ' _ hagree
  refine ⟨fun c => Cert.Gcn.block
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.Gcn.Kernel.result_eq m ρ c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.ValueP.run (F := Ideal) m' ρ')
    rw [Cert.Gcn.Ref.res_eq, (hagree c).1, (hagree c).2.1, (hagree c).2.2.1, (hagree c).2.2.2.1, (hagree c).2.2.2.2.1,
      (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
